-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x128 : Shape := ⟨3, ![1, 100000, 128]⟩
abbrev S128x128 : Shape := ⟨2, ![128, 128]⟩
abbrev S128 : Shape := ⟨1, ![128]⟩
abbrev S_ : Shape := ⟨0, ![]⟩

class Facts : Prop where
  bcast_S_S1x100000x128 : S_.BroadcastsInDim S1x100000x128 (![] : Fin 0 → Fin S1x100000x128.rank)
  reducesTo_S1x100000x128_S_d0_1_2 : S1x100000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x100000x128 .f32) (main_arg1 : FVec F S128x128 .f32) (main_arg2 : FVec F S128x128 .f32) (main_arg3 : FVec F S128 .f32) : IVec S_ 1 :=
  let main_v0 : FVec F S1x100000x128 .f32 := Host.absf main_arg0
  let main_cst : FVec F S_ .f32 := constant S_ .f32 0x7F800000#32
  let main_v1 : FVec F S1x100000x128 .f32 := broadcastInDim S1x100000x128 ![] bcast_S_S1x100000x128 main_cst
  let main_v2 : IVec S1x100000x128 1 := cmpf .olt main_v0 main_v1
  let main_c : IVec S_ 1 := constantI S_ 1 1#1
  let main_v3 : IVec S_ 1 := (fun x v => Host.reduce IntOp.andi x v reducesTo_S1x100000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x100000x128 : Shape := ⟨3, ![1, 100000, 128]⟩
abbrev S128x128 : Shape := ⟨2, ![128, 128]⟩
abbrev S128 : Shape := ⟨1, ![128]⟩
abbrev S100000x128 : Shape := ⟨2, ![100000, 128]⟩
abbrev S1x128 : Shape := ⟨2, ![1, 128]⟩
abbrev S20000x128 : Shape := ⟨2, ![20000, 128]⟩
abbrev S10000x128 : Shape := ⟨2, ![10000, 128]⟩

abbrev nBuf : Space → Nat
  | .hbm => 8
  | .vmem => 9
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S1x128, .f32⟩
  | .hbm, ⟨6, _⟩ => ⟨S100000x128, .f32⟩
  | .hbm, ⟨7, _⟩ => ⟨S1x100000x128, .f32⟩
  | .local _ .vmem, ⟨0, _⟩ => ⟨S20000x128, .f32⟩
  | .local _ .vmem, ⟨1, _⟩ => ⟨S20000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S1x128, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c10000_i32 : BitVec 32 := 10000#32
  let v13 : BitVec 32 := Scalar.muli v12 c10000_i32
  let v14 : Index := Scalar.indexCast v13
  let c0 : Index := 0#32
  ![v14.toNat, 0]
def cc0_transform_0 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x100000x128_S100000x128 : S1x100000x128.ShapeCasts S100000x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S10000x128 : 0 < S10000x128.numel
  shapeCasts_S10000x128_S10000x128 : S10000x128.ShapeCasts S10000x128
  broadcasts_S1x128_S10000x128 : S1x128.Broadcasts S10000x128
  inb_S10000x128_S10000x128_0_0 : ∀ a, (![0, 0] : Fin 2 → Nat) a + S10000x128.size a ≤ S10000x128.size a
  shapeCasts_S100000x128_S1x100000x128 : S100000x128.ShapeCasts S1x100000x128
  dot_S128x128_S128x128_S128x128_0_0_1_1_n_n_wf : DotDims.WF S128x128 S128x128 S128x128 [0] [0] [1] [1] [] []
  dot_S1x128_S128x128_S1x128_1_0_0_1_n_n_wf : DotDims.WF S1x128 S128x128 S1x128 [1] [0] [0] [1] [] []
  dot_S10000x128_S128x128_S10000x128_1_0_0_1_n_n_wf : DotDims.WF S10000x128 S128x128 S10000x128 [1] [0] [0] [1] [] []
  hrank0 : 0 < grid0.rank
  k0_off1_inb : ∀ i : grid0.Coords, ∀ a, (k0_off1 i) a + S10000x128.size a ≤ S20000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x100000x128 : Shape := ⟨3, ![1, 100000, 128]⟩
abbrev S128x128 : Shape := ⟨2, ![128, 128]⟩
abbrev S128 : Shape := ⟨1, ![128]⟩
abbrev S1x1x128 : Shape := ⟨3, ![1, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1x100000x128, .f32⟩
  | .hbm, ⟨5, _⟩ => ⟨S1x1x128, .f32⟩
  | .hbm, ⟨6, _⟩ => ⟨S1x100000x128, .f32⟩
  | .hbm, ⟨7, _⟩ => ⟨S1x100000x128, .f32⟩
  | .hbm, ⟨8, _⟩ => ⟨S1x100000x128, .f32⟩
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x100000x128_0_1_2 : S1x1x128.BroadcastsInDim S1x100000x128 (![0, 1, 2] : Fin 3 → Fin S1x100000x128.rank)
  dot_S1x100000x128_S128x128_S1x100000x128_2_1_01_0_n_n_wf : DotDims.WF S1x100000x128 S128x128 S1x100000x128 [2] [1] [0, 1] [0] [] []
  dot_S1x100000x128_S128x128_S1x100000x128_2_0_01_1_n_n_wf : DotDims.WF S1x100000x128 S128x128 S1x100000x128 [2] [0] [0, 1] [1] [] []

variable [Facts₀]

def dot_S1x100000x128_S128x128_S1x100000x128_2_1_01_0_n_n : DotDims S1x100000x128 S128x128 S1x100000x128 where
  lhsContracting := [2]
  rhsContracting := [1]
  lhsNonContracting := [0, 1]
  rhsNonContracting := [0]
  lhsBatch := []
  rhsBatch := []
  wf := dot_S1x100000x128_S128x128_S1x100000x128_2_1_01_0_n_n_wf
def dot_S1x100000x128_S128x128_S1x100000x128_2_0_01_1_n_n : DotDims S1x100000x128 S128x128 S1x100000x128 where
  lhsContracting := [2]
  rhsContracting := [0]
  lhsNonContracting := [0, 1]
  rhsNonContracting := [1]
  lhsBatch := []
  rhsBatch := []
  wf := dot_S1x100000x128_S128x128_S1x100000x128_2_0_01_1_n_n_wf

class Facts : Prop extends Facts₀ where

variable [Facts]
-- ==== Proof.Pieces.lean ====
/-
  What one run of the kernel body leaves in its buffers, as values.

  The body keeps two scratch buffers across the grid: the fused matrix and the fused bias row.  At the first grid point
  it fills both from the `W`, `graph` and bias blocks, then — at every point — multiplies half of the current block of
  rows of `h` by the fused matrix held in scratch and adds the fused bias row.  Here each buffer's contents after the body
  are read back as the corresponding pure term of the blocks: at the first point from the input blocks alone, at a later
  point from the input blocks and what the scratch held before.
-/
import proofs.«181394_g34368328302832_cont_8to1_b_213_26_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The half of a 20000-row block the body reads at grid coordinates `i`: the 10000 rows from the offset the body
    computes (0 at an even point, 10000 at an odd one). -/
def rows (i : grid0.Coords) (x0 : Vec F S20000x128 .f32) : Vec F S10000x128 .f32 :=
  View.ld x0 (Rect.unit (s := S20000x128) (k0_off1 i) S10000x128.size (k0_off1_inb i))

/-- First point: the matrix scratch ends at the product of the transposed `W` block with the `graph` block. -/
theorem scratchM_first (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S1x128 .f32) (harg7 : arg7.IsWhole) (hc0 : cond0_0 i) (x0 : Vec F S20000x128 .f32) (x1 : Vec F S128x128 .f32) (x2 : Vec F S128x128 .f32) (x3 : Vec F S1x128 .f32) :
    sout0_A_0 c i arg1 harg1 arg2 harg2 arg3 harg3 arg4 harg4 arg5 harg5 arg6 harg6 arg7 harg7 hc0 x0 x1 x2 x3 = k0_pay1 x2 x1 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_run_names
  rw [View.canon_unit_zero hz]
  simp only [View.readAt_eq_ld, harg2.read_unread, harg3.read_unread, View.ld_unit_zero (S := S128x128) hz]

/-- First point: the bias scratch ends at the product of the bias row with the `graph` block. -/
theorem scratchB_first (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S1x128 .f32) (harg7 : arg7.IsWhole) (hc0 : cond0_0 i) (x0 : Vec F S20000x128 .f32) (x1 : Vec F S128x128 .f32) (x2 : Vec F S128x128 .f32) (x3 : Vec F S1x128 .f32) :
    sout0_A_1 c i arg1 harg1 arg2 harg2 arg3 harg3 arg4 harg4 arg5 harg5 arg6 harg6 arg7 harg7 hc0 x0 x1 x2 x3 = k0_pay2 x3 x1 := by
  unfold sout0_A_1
  rw [View.read_writes_eq_canon _ _ _ (scover0_A_1 c i arg1 harg1 arg2 harg2 arg3 harg3 arg4 harg4 arg5 harg5 arg6 harg6 arg7 harg7 hc0 x0 x1 x2 x3)]
  unfold kernelRun0_A
  dsimp only
  sl_unfold_run_names
  rw [View.canon_unit_zero hz]
  simp only [View.readAt_eq_ld, harg2.read_unread, harg4.read_unread, View.ld_unit_zero (S := S128x128) hz,
    View.ld_unit_zero (S := S1x128) hz]

/-- First point: the output block is the selected rows against the scratch contents just stored. -/
theorem out_first (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S1x128 .f32) (harg7 : arg7.IsWhole) (hc0 : cond0_0 i) (x0 : Vec F S20000x128 .f32) (x1 : Vec F S128x128 .f32) (x2 : Vec F S128x128 .f32) (x3 : Vec F S1x128 .f32) :
    out0_A_4 c i arg1 harg1 arg2 harg2 arg3 harg3 arg4 harg4 arg5 harg5 arg6 harg6 arg7 harg7 hc0 x0 x1 x2 x3 = k0_pay3 (rows i x0) (k0_pay1 x2 x1) (k0_pay2 x3 x1) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_run_names
  rw [View.canon_unit_zero hz]
  rw [View.readCov_unit_zero (S := S128x128) _ hz, View.readCov_unit_zero (S := S1x128) _ hz]
  simp only [View.readAt_eq_ld, harg1.read_unread, harg2.read_unread, harg3.read_unread, harg4.read_unread,
    View.ld_unit_zero (S := S128x128) hz, View.ld_unit_zero (S := S1x128) hz]
  rfl

/-- A later point: the output block is the selected rows against what the scratch held before the point. -/
theorem out_later (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S1x128 .f32) (harg7 : arg7.IsWhole) (hc0 : ¬cond0_0 i) (x0 : Vec F S20000x128 .f32) (x1 : Vec F S128x128 .f32) (x2 : Vec F S128x128 .f32) (x3 : Vec F S1x128 .f32) (xs0 : Vec F S128x128 .f32) (xs1 : Vec F S1x128 .f32) :
    out0_B_4 c i arg1 harg1 arg2 harg2 arg3 harg3 arg4 harg4 arg5 harg5 arg6 harg6 arg7 harg7 hc0 x0 x1 x2 x3 xs0 xs1 = k0_pay3 (rows i x0) xs0 xs1 := by
  unfold out0_B_4
  rw [View.read_writes_eq_canon _ _ _ (cover0_B_4 c i arg1 harg1 arg2 harg2 arg3 harg3 arg4 harg4 arg5 harg5 arg6 harg6 arg7 harg7 hc0 x0 x1 x2 x3 xs0 xs1)]
  unfold kernelRun0_B
  dsimp only
  rw [View.canon_unit_zero hz]
  simp only [View.readAt_eq_ld, harg1.read_unread, harg6.read_unread, harg7.read_unread,
    View.ld_unit_zero (S := S128x128) hz, View.ld_unit_zero (S := S1x128) hz]
  rfl

end Cert.KernelIdeal.Pieces

end
-- ==== Proof.Invariant.lean ====
/-
  What the buffers hold after each grid point.

  The body fills the two scratch buffers at the first grid point only and never stores into them again, so after EVERY
  point they hold what the first point computed: the fused matrix (from the `W` and `graph` blocks) and the fused bias
  row (from the bias and `graph` blocks).  The output's buffer after point n holds the product of the rows the point
  selects with that matrix, plus that row.  By induction on the point.
-/
import proofs.«181394_g34368328302832_cont_8to1_b_213_26_alg».proof.Proof.Gen.KernelIdeal.Frame
import proofs.«181394_g34368328302832_cont_8to1_b_213_26_alg».proof.Proof.Pieces

set_option maxRecDepth 16384

noncomputable section

open Idealize.ShloMosaic Idealize.ShloMosaic.TcCoe Idealize.SL.Sem

namespace Cert.KernelIdeal.Invariant

open Cert.KernelIdeal Cert.KernelIdeal.Gen

variable {F : FTy → Type} [FloatOps F]
variable (m : (ℓ : Loc nD τ sig) → Buf (Elt F) ℓ)

/-- The first grid point. -/
def first : Fin cfg0.N := ⟨0, by rw [show cfg0.N = 10 from N_0]; decide⟩

/-- The fused matrix as the first point computes it from the `W` and `graph` blocks. -/
def scratchM (c : Dev nD) : Vec F S128x128 .f32 := k0_pay1 (iblk m c 2 first) (iblk m c 1 first)

/-- The fused bias row as the first point computes it from the bias and `graph` blocks. -/
def scratchB (c : Dev nD) : Vec F S1x128 .f32 := k0_pay2 (iblk m c 3 first) (iblk m c 1 first)

/-- At the first point: both scratch buffers are filled from the point's blocks and the output block is computed
    from them. -/
theorem step_first (c : Dev nD) (t : Fin cfg0.N) (h0 : t.val % 10 = 0) :
    outsAt0 m c t.val t.isLt
      = (k0_pay3 (Pieces.rows (grid0.coords t) (iblk m c 0 t)) (k0_pay1 (iblk m c 2 t) (iblk m c 1 t)) (k0_pay2 (iblk m c 3 t) (iblk m c 1 t)),
         k0_pay1 (iblk m c 2 t) (iblk m c 1 t), k0_pay2 (iblk m c 3 t) (iblk m c 1 t)) := by
  rw [outsAt0_A m c t h0]
  rw [Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
    Pieces.scratchM_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
    Pieces.scratchB_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]

/-- At a later point: the scratch buffers keep what they held, and the output block is computed from that. -/
theorem step_later (c : Dev nD) (t : Fin cfg0.N) (h0 : ¬t.val % 10 = 0) (M : Vec F S128x128 .f32) (B : Vec F S1x128 .f32)
    (hprev : (outsAt0 m c (t.val - 1) (Nat.lt_of_le_of_lt (Nat.sub_le _ _) t.isLt)).2 = (M, B)) :
    outsAt0 m c t.val t.isLt = (k0_pay3 (Pieces.rows (grid0.coords t) (iblk m c 0 t)) M B, M, B) := by
  rw [outsAt0_B m c t h0]
  have e1 : (outsAt0 m c (t.val - 1) (Nat.lt_of_le_of_lt (Nat.sub_le _ _) t.isLt)).2.1 = M := congrArg Prod.fst hprev
  have e2 : (outsAt0 m c (t.val - 1) (Nat.lt_of_le_of_lt (Nat.sub_le _ _) t.isLt)).2.2 = B := congrArg Prod.snd hprev
  rw [e1, e2]
  rw [Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) M B]
  unfold sout0_B_0 sout0_B_1
  rfl

/-- After every point: the output block is the selected rows against the first point's fused matrix plus its fused
    bias row, and the scratch buffers hold those two. -/
theorem outsAt_eq (c : Dev nD) : ∀ (n : ℕ) (hn : n < cfg0.N),
    outsAt0 m c n hn
      = (k0_pay3 (Pieces.rows (grid0.coords ⟨n, hn⟩) (iblk m c 0 ⟨n, hn⟩)) (scratchM m c) (scratchB m c), scratchM m c, scratchB m c)
  | 0, hn => step_first m c ⟨0, hn⟩ rfl
  | n + 1, hn => by
    have hN : cfg0.N = 10 := N_0
    refine step_later m c ⟨n + 1, hn⟩ (by dsimp only; omega) (scratchM m c) (scratchB m c) ?_
    show (outsAt0 m c n _).2 = _
    rw [outsAt_eq c n (Nat.lt_of_succ_lt hn)]

end Cert.KernelIdeal.Invariant

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.Payloads.lean ====
/-
  The three products of the kernel body read at an index, on the extended reals.

  The fused matrix is a product contracting the FIRST axis of both operands (`Wᵀ · graph`): entry (k, g) is
  `∑ o, W(o,k) · graph(o,g)`.  The fused bias row and the block of results are plain row-by-column products; the block of
  results also adds the bias row, broadcast down the rows.
-/
import proofs.«181394_g34368328302832_cont_8to1_b_213_26_alg».proof.Proof.Gen.KernelIdeal.Skeleton
import proofs.«181394_g34368328302832_cont_8to1_b_213_26_alg».proof.Proof.LibDotRows
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payloads

open Cert.KernelIdeal Cert.KernelIdeal.Gen

/-- The dimension numbers of the product that contracts the first axis of both operands. -/
abbrev dT : DotDims S128x128 S128x128 S128x128 := dot_S128x128_S128x128_S128x128_0_0_1_1_n_n

theorem dT_lhs0 (j : S128x128.Idx) (q : dT.contr.Idx) : (dT.lhsIdx j q 0).val = (q ⟨0, by decide⟩).val :=
  dT.lhsIdx_val_of_single rfl j q

theorem dT_lhs1 (j : S128x128.Idx) (q : dT.contr.Idx) : (dT.lhsIdx j q 1).val = (j 0).val := by
  unfold DotDims.lhsIdx
  rw [dif_neg (show ¬(1 : Fin S128x128.rank) ∈ dT.lhsBatch by decide),
    dif_pos (show (1 : Fin S128x128.rank) ∈ dT.lhsNonContracting by decide)]
  rfl

theorem dT_rhs0 (j : S128x128.Idx) (q : dT.contr.Idx) : (dT.rhsIdx j q 0).val = (q ⟨0, by decide⟩).val :=
  dT.rhsIdx_val_of_single rfl j q

theorem dT_rhs1 (j : S128x128.Idx) (q : dT.contr.Idx) : (dT.rhsIdx j q 1).val = (j 1).val := by
  unfold DotDims.rhsIdx
  rw [dif_neg (show ¬(1 : Fin S128x128.rank) ∈ dT.rhsBatch by decide),
    dif_pos (show (1 : Fin S128x128.rank) ∈ dT.rhsNonContracting by decide)]
  rfl

/-- The contraction over the first axis of both operands, as a sum over `o < 128`. -/
theorem dT_sum (W graph : S128x128.Idx → EReal) (k g : Fin 128) :
    ∑ q : dT.contr.Idx, W (dT.lhsIdx (ix2 k g) q) * graph (dT.rhsIdx (ix2 k g) q)
      = ∑ o : Fin 128, W (ix2 o k) * graph (ix2 o g) := by
  rw [← Equiv.sum_comp (contrEquiv1 dT 128 rfl rfl).symm]
  refine Finset.sum_congr rfl fun o _ => ?_
  have ho := contrEquiv1_symm_val dT 128 rfl rfl o
  have el : dT.lhsIdx (ix2 k g) ((contrEquiv1 dT 128 rfl rfl).symm o) = ix2 o k := funext fun a => Fin.ext (by
    match a with
    | ⟨0, _⟩ => exact (dT_lhs0 _ _).trans ho
    | ⟨1, _⟩ => exact dT_lhs1 _ _)
  have er : dT.rhsIdx (ix2 k g) ((contrEquiv1 dT 128 rfl rfl).symm o) = ix2 o g := funext fun a => Fin.ext (by
    match a with
    | ⟨0, _⟩ => exact (dT_rhs0 _ _).trans ho
    | ⟨1, _⟩ => exact dT_rhs1 _ _)
  rw [el, er]

/-- The fused matrix at (k, g): `∑ o, W(o,k) · graph(o,g)`. -/
theorem fusedMatrix_apply (W graph : Vec Ideal S128x128 .f32) (k g : Fin 128) :
    k0_pay1 (F := Ideal) W graph (ix2 k g) = ∑ o : Fin 128, W (ix2 o k) * graph (ix2 o g) := by
  unfold k0_pay1
  refine (congrFun (shapeCast_self _ _) _).trans ?_
  refine (Ideal.matmul_constant_zero_apply dT none W graph (ix2 k g)).trans ?_
  exact dT_sum W graph k g

/-- The fused bias row at g: `∑ o, b(0,o) · graph(o,g)`. -/
theorem fusedBias_apply (b2 : Vec Ideal S1x128 .f32) (graph : Vec Ideal S128x128 .f32) (g : Fin 128) :
    k0_pay2 (F := Ideal) b2 graph (ix2 (0 : Fin 1) g) = ∑ o : Fin 128, b2 (ix2 (0 : Fin 1) o) * graph (ix2 o g) := by
  unfold k0_pay2
  refine (congrFun (shapeCast_self _ _) _).trans ?_
  refine (DotRows.matmul_zero_ix2 dot_S1x128_S128x128_S1x128_1_0_0_1_n_n rfl rfl rfl rfl rfl rfl none _ graph (0 : Fin 1) g).trans ?_
  exact Finset.sum_congr rfl fun o _ => congrArg (· * graph (ix2 o g)) (congrFun (shapeCast_self _ _) _)

/-- The bias row broadcast down 10000 rows, read at (y, g). -/
theorem biasRow_apply (bg : Vec Ideal S1x128 .f32) (y : Fin 10000) (g : Fin 128) :
    broadcastTo S10000x128 bg broadcasts_S1x128_S10000x128 (ix2 y g) = bg (ix2 (0 : Fin 1) g) :=
  broadcastTo_apply bg broadcasts_S1x128_S10000x128 (ix2 y g) (ix2 (0 : Fin 1) g) (fun a => match a with
    | ⟨0, _⟩ => by show (0 : Nat) = if (1 : Nat) = 1 then 0 else y.val; rw [if_pos rfl]
    | ⟨1, _⟩ => by show g.val = if (128 : Nat) = 1 then 0 else g.val; rw [if_neg (by decide)])

/-- The block of results at (y, g): row y of the selected rows against column g of the matrix, plus the bias row at g. -/
theorem block_apply (x : Vec Ideal S10000x128 .f32) (M : Vec Ideal S128x128 .f32) (bg : Vec Ideal S1x128 .f32)
    (y : Fin 10000) (g : Fin 128) :
    k0_pay3 (F := Ideal) x M bg (ix2 y g) = (∑ k : Fin 128, x (ix2 y k) * M (ix2 k g)) + bg (ix2 (0 : Fin 1) g) := by
  unfold k0_pay3
  show _ + _ = _
  refine congrArg₂ (· + ·) ?_ (biasRow_apply bg y g)
  refine (DotRows.matmul_zero_ix2 dot_S10000x128_S128x128_S10000x128_1_0_0_1_n_n rfl rfl rfl rfl rfl rfl none _ M y g).trans ?_
  exact Finset.sum_congr rfl fun k _ => congrArg (· * M (ix2 k g)) (congrFun (shapeCast_self _ _) _)

end Cert.KernelIdeal.Payloads

end
-- ==== Proof.Spec.lean ====
/-
  The result of the message-passing layer as one function of the four argument arrays, in the two
  arrangements the two programs compute it in.

  With h : [1, 100000, 128], graph, W : [128, 128] and b : [128], entry (0, r, g) of the result is

    two-stage form :  ∑ o, ((∑ k, h(0,r,k) · W(o,k)) + b(o)) · graph(o,g)
    fused form     :  (∑ k, h(0,r,k) · M(k,g)) + β(g),   M(k,g) = ∑ o, W(o,k) · graph(o,g),   β(g) = ∑ o, b(o) · graph(o,g).

  The two agree on the reals by distributivity and an exchange of the two sums; on the extended reals they agree
  when every entry of the four arrays is a real (an infinite entry breaks distributivity).
-/
import Idealize.ShloMosaic.PureOps.Ideal
import Idealize.ShloMosaic.Lib.ValueIdx

noncomputable section

namespace Cert.Bridge

open Idealize.ShloMosaic Idealize.ShloMosaic.ValueIdx

/-- The shape of `h` and of the result. -/
abbrev Sh : Shape := ⟨3, ![1, 100000, 128]⟩
/-- The shape of `graph` and of `W`. -/
abbrev Sm : Shape := ⟨2, ![128, 128]⟩
/-- The shape of `b`. -/
abbrev Sb : Shape := ⟨1, ![128]⟩

/-- The fused matrix `Wᵀ · graph`: entry (k, g) is `∑ o, W(o,k) · graph(o,g)`. -/
def fusedM (graph W : Sm.Idx → EReal) (k g : Fin 128) : EReal :=
  ∑ o : Fin 128, W (ix2 o k) * graph (ix2 o g)

/-- The fused bias row `b · graph`: entry g is `∑ o, b(o) · graph(o,g)`. -/
def fusedB (graph : Sm.Idx → EReal) (b : Sb.Idx → EReal) (g : Fin 128) : EReal :=
  ∑ o : Fin 128, b (ix1 o) * graph (ix2 o g)

/-- Entry (0, r, g) of the result in the fused form: row r of `h` against column g of the fused matrix, plus the
    fused bias. -/
def outFused (h : Sh.Idx → EReal) (graph W : Sm.Idx → EReal) (b : Sb.Idx → EReal) (r : Fin 100000) (g : Fin 128) : EReal :=
  (∑ k : Fin 128, h (ix3 (0 : Fin 1) r k) * fusedM graph W k g) + fusedB graph b g

/-- Entry (0, r, g) of the result in the two-stage form: the messages `h · Wᵀ + b` of row r against column g of
    `graph`. -/
def outStaged (h : Sh.Idx → EReal) (graph W : Sm.Idx → EReal) (b : Sb.Idx → EReal) (r : Fin 100000) (g : Fin 128) : EReal :=
  ∑ o : Fin 128, ((∑ k : Fin 128, h (ix3 (0 : Fin 1) r k) * W (ix2 o k)) + b (ix1 o)) * graph (ix2 o g)

/-- The whole result array, in the fused form. -/
def G (h : Sh.Idx → EReal) (graph W : Sm.Idx → EReal) (b : Sb.Idx → EReal) : Sh.Idx → EReal :=
  fun i => outFused h graph W b (i 1) (i 2)

/-- Every entry of an array is a real. -/
def AllReal {s : Shape} (x : s.Idx → EReal) : Prop := ∀ i, ∃ r : ℝ, x i = (r : EReal)

end Cert.Bridge

end
-- ==== Proof.BlockEntry.lean ====
/-
  One entry of the block of results, in terms of the blocks the body reads.

  With the scratch buffers holding the fused matrix `Wᵀ · graph` and the fused bias row `b · graph`, entry (p, q) of the
  block the body stores is `(∑ k, X(p,k) · ∑ o, W(o,k) · graph(o,q)) + ∑ o, b(0,o) · graph(o,q)`, where X are the rows
  the point selects.
-/
import proofs.«181394_g34368328302832_cont_8to1_b_213_26_alg».proof.Proof.Payloads
import proofs.«181394_g34368328302832_cont_8to1_b_213_26_alg».proof.Proof.Spec

noncomputable section

open Idealize.ShloMosaic Idealize.ShloMosaic.ValueIdx

namespace Cert.KernelIdeal.Payloads

open Cert.KernelIdeal Cert.KernelIdeal.Gen

theorem block_entry (X : Vec Ideal S10000x128 .f32) (Wv Gr : Vec Ideal S128x128 .f32) (Bv : Vec Ideal S1x128 .f32)
    (p : Fin 10000) (q : Fin 128) :
    k0_pay3 (F := Ideal) X (k0_pay1 Wv Gr) (k0_pay2 Bv Gr) (ix2 p q)
      = (∑ k : Fin 128, X (ix2 p k) * Cert.Bridge.fusedM Gr Wv k q) + ∑ o : Fin 128, Bv (ix2 (0 : Fin 1) o) * Gr (ix2 o q) := by
  refine (block_apply X (k0_pay1 Wv Gr) (k0_pay2 Bv Gr) p q).trans ?_
  refine congrArg₂ (· + ·) (Finset.sum_congr rfl fun k _ => ?_) (fusedBias_apply Bv Gr q)
  exact congrArg (X (ix2 p k) * ·) (fusedMatrix_apply Wv Gr k q)

end Cert.KernelIdeal.Payloads

end
-- ==== Proof.Geometry.lean ====
/-
  Where the windows' blocks lie in their arrays.

  The arrays `graph`, `W` and the bias row are each staged as one block, the whole array: reading the block is reading
  the array. The rows of `h` are staged in blocks of 20000 rows, block t / 2 at grid point t, and the body takes from
  that block the 10000 rows from offset (t mod 2) · 10000: together, rows t · 10000 … t · 10000 + 9999 of the array. The
  result is written in blocks of 10000 rows, block t at point t: row r of the result lies in the block of point
  r / 10000, and every point writes its block back.
-/
import proofs.«181394_g34368328302832_cont_8to1_b_213_26_alg».proof.Proof.Gen.KernelIdeal.Frame
import proofs.«181394_g34368328302832_cont_8to1_b_213_26_alg».proof.Proof.Pieces
import Idealize.ShloMosaic.Lib.Pipeline.Value
import Idealize.ShloMosaic.Lib.ValueIdx

set_option maxRecDepth 16384
noncomputable section
open Idealize.ShloMosaic Idealize.ShloMosaic.TcCoe Idealize.SL.Sem Idealize.ShloMosaic.ValueIdx
namespace Cert.KernelIdeal.Geometry
open Cert.KernelIdeal Cert.KernelIdeal.Gen
variable {F : FTy → Type} [FloatOps F]
variable (m : (ℓ : Loc nD τ sig) → Buf (Elt F) ℓ)

/-- The printed index maps and the body's row offset, decided over the ten grid points: the block of rows of `h` at
    point t is block t / 2, the one-block windows sit at block (0, 0), the result's block at point t is block t, and the
    body's offset into the block of rows is (t mod 2) · 10000. -/
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = (t.val % 2) * 10000 ∧ k0_off1 (grid0.coords t) (1 : Fin 2) = 0 :=
  (by decide +kernel : ∀ t : Fin grid0.N, _)

/-- The block of `graph` at any point is the whole array. -/
theorem graph_block (c : Dev nD) (t : Fin cfg0.N) : (iblk m c 1 t : Vec F S128x128 .f32) = V m c main_arg1 := by
  obtain ⟨-, -, e0, e1, -⟩ := idx_facts t
  funext j
  unfold iblk
  rw [View.read_apply]
  show V m c main_arg1 _ = V m c main_arg1 _
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The block of `W` at any point is the whole array. -/
theorem weight_block (c : Dev nD) (t : Fin cfg0.N) : (iblk m c 2 t : Vec F S128x128 .f32) = V m c main_arg2 := by
  obtain ⟨-, -, -, -, e0, e1, -⟩ := idx_facts t
  funext j
  unfold iblk
  rw [View.read_apply]
  show V m c main_arg2 _ = V m c main_arg2 _
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The block of the bias row at any point is the whole row. -/
theorem bias_block (c : Dev nD) (t : Fin cfg0.N) : (iblk m c 3 t : Vec F S1x128 .f32) = V m c main_v1 := by
  obtain ⟨-, -, -, -, -, -, e0, e1, -⟩ := idx_facts t
  funext j
  unfold iblk
  rw [View.read_apply]
  show V m c main_v1 _ = V m c main_v1 _
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- Row p of the rows the body selects at point t is row t · 10000 + p of `h`: block t / 2 starts at row
    (t / 2) · 20000 and the body's offset inside it is (t mod 2) · 10000. -/
theorem rows_block (c : Dev nD) (t : Fin cfg0.N) (p : Fin 10000) (k : Fin 128) (r : Fin 100000) (hr : r.val = t.val * 10000 + p.val) :
    Pieces.rows (grid0.coords t) (iblk m c 0 t) (ix2 p k) = (V m c main_v0 : S100000x128.Idx → Elt F .f32) (ix2 r k) := by
  obtain ⟨e0, e1, -, -, -, -, -, -, -, -, o0, o1⟩ := idx_facts t
  have hN : cfg0.N = 10 := N_0
  have ht : t.val < 10 := hN ▸ t.isLt
  unfold Pieces.rows iblk
  show ((cfg0.win 0).blk t).view.read (Elt F) (V m c (Pipeline.arrRef spec0 0)) _ = _
  rw [View.read_apply]
  show V m c main_v0 _ = V m c main_v0 _
  congr 1
  funext a
  apply Fin.ext
  match a with
  | ⟨0, _⟩ =>
    show win0_0.index t (0 : Fin 2) * 20000 + 1 * (k0_off1 (grid0.coords t) (0 : Fin 2) + 1 * p.val) = r.val
    rw [e0, o0]; omega
  | ⟨1, _⟩ =>
    show win0_0.index t (1 : Fin 2) * 128 + 1 * (k0_off1 (grid0.coords t) (1 : Fin 2) + 1 * k.val) = k.val
    rw [e1, o1]; omega

/-- Entry (p, q) of the result's block at point t is entry (t · 10000 + p, q) of the result. -/
theorem out_emb (t : Fin cfg0.N) (p : Fin 10000) (q : Fin 128) (r : Fin 100000) (hr : r.val = t.val * 10000 + p.val) :
    ((cfg0.win 4).blk t).view.emb (ix2 p q) = (ix2 r q : S100000x128.Idx) := by
  obtain ⟨-, -, -, -, -, -, -, -, e0, e1, -⟩ := idx_facts t
  funext a
  apply Fin.ext
  match a with
  | ⟨0, _⟩ => show win0_4.index t (0 : Fin 2) * 10000 + 1 * p.val = r.val; rw [e0]; omega
  | ⟨1, _⟩ => show win0_4.index t (1 : Fin 2) * 128 + 1 * q.val = q.val; rw [e1]; omega

/-- An index of the result is in point t's block iff each coordinate is in the block's range on its axis. -/
theorem mem_blk4 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v2).slice (win0_4.rect t)).set ↔ _
  rw [View.set_slice_whole, Rect.mem_set_unit]
  exact Iff.rfl

/-- Every entry of the result lies in the block of some point, and that point writes its block back: row r lies in
    the block of point r / 10000. -/
theorem out_cover (i : S100000x128.Idx) :
    ∃ t : Fin cfg0.N, (cfg0.win 4).flush t = true ∧ i ∈ ((cfg0.win 4).blk t).view.set := by
  have hN : cfg0.N = 10 := N_0
  have hi0 : (i 0).val < 100000 := (i 0).isLt
  have hi1 : (i 1).val < 128 := (i 1).isLt
  have hlt : (i 0).val / 10000 < cfg0.N := by omega
  obtain ⟨-, -, -, -, -, -, -, -, e0, e1, -⟩ := idx_facts ⟨(i 0).val / 10000, hlt⟩
  have e0' : win0_4.index ⟨(i 0).val / 10000, hlt⟩ (0 : Fin 2) = (i 0).val / 10000 := e0
  refine ⟨⟨(i 0).val / 10000, hlt⟩, flush0_4 _, ?_⟩
  rw [mem_blk4]
  intro a
  match a with
  | ⟨0, _⟩ =>
    show win0_4.index ⟨(i 0).val / 10000, hlt⟩ (0 : Fin 2) * 10000 ≤ (i 0).val
      ∧ (i 0).val < win0_4.index ⟨(i 0).val / 10000, hlt⟩ (0 : Fin 2) * 10000 + 10000
    rw [e0']; omega
  | ⟨1, _⟩ =>
    show win0_4.index ⟨(i 0).val / 10000, hlt⟩ (1 : Fin 2) * 128 ≤ (i 1).val
      ∧ (i 1).val < win0_4.index ⟨(i 0).val / 10000, hlt⟩ (1 : Fin 2) * 128 + 128
    rw [e1]; omega

end Cert.KernelIdeal.Geometry

end
-- ==== Proof.Blocks.lean ====
/-
  From the blocks the grid points write back to the region's whole result array, on the extended reals.

  Point t writes back rows t·10000 … t·10000 + 9999 of the [100000, 128] result array, and the ten points together
  cover it.  What point t writes at (p, q) is row t·10000 + p of the reshaped `h` against column q of the fused matrix,
  plus the fused bias at q — the same function of the array index at every point.  So the array ends at that function.
-/
import proofs.«181394_g34368328302832_cont_8to1_b_213_26_alg».proof.Proof.Gen.KernelIdeal.Frame
import proofs.«181394_g34368328302832_cont_8to1_b_213_26_alg».proof.Proof.Invariant
import proofs.«181394_g34368328302832_cont_8to1_b_213_26_alg».proof.Proof.BlockEntry
import proofs.«181394_g34368328302832_cont_8to1_b_213_26_alg».proof.Proof.Geometry
import proofs.«181394_g34368328302832_cont_8to1_b_213_26_alg».proof.Proof.Spec
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- Entry (r, q) of the region's result, from the reshaped `h`, `graph`, `W` and the reshaped bias: row r against
    column q of the fused matrix, plus the fused bias at q. -/
def resultOf (H : S100000x128.Idx → EReal) (Gr Wv : S128x128.Idx → EReal) (B : S1x128.Idx → EReal) :
    S100000x128.Idx → EReal := fun j =>
  (∑ k : Fin 128, H (ix2 (j 0) k) * Cert.Bridge.fusedM Gr Wv k (j 1))
    + ∑ o : Fin 128, B (ix2 (0 : Fin 1) o) * Gr (ix2 o (j 1))

/-- The region's result array as that function of the arrays the region finds. -/
def result (c : Dev nD) : Buf (Elt Ideal) ((c : Thread nD τ).loc main_v2) :=
  resultOf (V m c main_v0) (V m c main_arg1) (V m c main_arg2) (V m c main_v1)

/-- What point t leaves at (p, q) of the output block is the result at the block's position in the array. -/
theorem flushed_entry (c : Dev nD) (t : Fin cfg0.N) (p : Fin 10000) (q : Fin 128) :
    k0_pay3 (Pieces.rows (grid0.coords t) (iblk m c 0 t)) (Invariant.scratchM m c) (Invariant.scratchB m c) (ix2 p q)
      = result m c (((cfg0.win 4).blk t).view.emb (ix2 p q)) := by
  have hN : cfg0.N = 10 := N_0
  have hr : t.val * 10000 + p.val < 100000 := by have := t.isLt; have := p.isLt; omega
  rw [Geometry.out_emb t p q ⟨t.val * 10000 + p.val, hr⟩ rfl]
  unfold Invariant.scratchM Invariant.scratchB
  rw [Geometry.graph_block m c Invariant.first, Geometry.weight_block m c Invariant.first,
    Geometry.bias_block m c Invariant.first]
  refine (Payloads.block_entry _ _ _ _ p q).trans ?_
  refine congrArg₂ (· + ·) (Finset.sum_congr rfl fun k _ => ?_) rfl
  exact congrArg (· * Cert.Bridge.fusedM (V m c main_arg1) (V m c main_arg2) k q)
    (Geometry.rows_block m c t p k ⟨t.val * 10000 + p.val, hr⟩ rfl)

/-- What point t writes back is block t of the result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, Invariant.outsAt_eq m c t.val t.isLt]
  funext y
  obtain ⟨p, q, rfl⟩ : ∃ (p : Fin 10000) (q : Fin 128), y = ix2 p q := ⟨y 0, y 1, eq_ix2 y⟩
  rw [View.read_apply]
  exact flushed_entry m c t p q

/-- The region's result array after the run. -/
theorem final (c : Dev nD) : (dats m 0 c).arrAt 4 cfg0.N = result m c :=
  (dats m 0 c).arrAt_eq_of_cover 4 (result m c) (fun t _ => flushed_eq m c t) Geometry.out_cover

end Cert.KernelIdeal.Blocks

end
-- ==== Proof.HostEnds.lean ====
/-
  The host's reshapes around the region, read entry by entry.

  Before the region the host reshapes h : [1, 100000, 128] to [100000, 128] and b : [128] to [1, 128]; after it, the
  host reshapes the region's result array [100000, 128] to [1, 100000, 128]. A reshape that adds or drops a leading
  axis of extent one reads the same row-major position, so

    entry (r, k) of the reshaped h      is entry (0, r, k) of h,
    entry (0, o) of the reshaped b      is entry o of b,
    entry (0, r, g) of the final result is entry (r, g) of the region's result array.

  Each is proved in two steps: first the equation between whole arrays (the buffer after the host's operations is
  the shape cast of the operand's buffer), then that equation read at an index.
-/
import proofs.«181394_g34368328302832_cont_8to1_b_213_26_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384
noncomputable section
open Idealize.ShloMosaic Idealize.ShloMosaic.TcCoe Idealize.SL.Sem Idealize.ShloMosaic.ValueIdx
namespace Cert.KernelIdeal.HostEnds
open Cert.KernelIdeal Cert.KernelIdeal.Gen
variable {F : FTy → Type} [FloatOps F]
variable (m : (ℓ : Loc nD τ sig) → Buf (Elt F) ℓ)

/-- The array the region finds in place of h: the launch contents of h with the leading unit axis dropped. -/
theorem rows_array (c : Dev nD) :
    (V m c main_v0 : S100000x128.Idx → Elt F .f32)
      = shapeCast S100000x128 (m ((c : Thread nD τ).loc main_arg0)) shapeCasts_S1x100000x128_S100000x128 := by
  show StableHlo.after hostOps0 (fun b => m (c, b)) (Proc.devRef .tc main_v0) = _
  after_results
  rfl

/-- The array the region finds in place of b: the launch contents of b with a leading unit axis added. -/
theorem bias_array (c : Dev nD) :
    (V m c main_v1 : S1x128.Idx → Elt F .f32)
      = shapeCast S1x128 (m ((c : Thread nD τ).loc main_arg3)) shapeCasts_S128_S1x128 := by
  show StableHlo.after hostOps0 (fun b => m (c, b)) (Proc.devRef .tc main_v1) = _
  after_results
  rfl

/-- Entry (r, k) of the reshaped h is entry (0, r, k) of h. -/
theorem entry_rows (c : Dev nD) (r : Fin 100000) (k : Fin 128) :
    (V m c main_v0 : S100000x128.Idx → Elt F .f32) (ix2 r k) = m ((c : Thread nD τ).loc main_arg0) (ix3 (0 : Fin 1) r k) :=
  (congrFun (rows_array m c) (ix2 r k)).trans (shapeCast_1ab_ab_apply _ _ r k)

/-- Entry (0, o) of the reshaped b is entry o of b. -/
theorem entry_bias (c : Dev nD) (o : Fin 128) :
    (V m c main_v1 : S1x128.Idx → Elt F .f32) (ix2 (0 : Fin 1) o) = m ((c : Thread nD τ).loc main_arg3) (ix1 o) :=
  (congrFun (bias_array m c) (ix2 (0 : Fin 1) o)).trans (shapeCast_a_1a_apply _ _ (0 : Fin 1) o)

/-- The final result array: the region's result array with a leading unit axis added. -/
theorem tail_array (c : Dev nD) (A : Buf (Elt F) ((c : Thread nD τ).loc main_v2)) (hA : (dats m 0 c).arrAt 4 cfg0.N = A) :
    (Pipeline.afterTail₀ cfgs (dats m) 0 (V0 m) [hostOps1] c main_v3 : S1x100000x128.Idx → Elt F .f32)
      = shapeCast S1x100000x128 (A : S100000x128.Idx → Elt F .f32) shapeCasts_S100000x128_S1x100000x128 := by
  unfold Pipeline.afterTail₀
  show StableHlo.after hostOps1 _ (Proc.devRef .tc main_v3) = _
  after_results
  rw [(Pipeline.withArrays_arr spec0 launch0.win.arr_inj c _ _ 4).trans hA]
  rfl

/-- Entry (0, r, g) of the final result is entry (r, g) of the region's result array. -/
theorem tail_result (c : Dev nD) (A : Buf (Elt F) ((c : Thread nD τ).loc main_v2)) (hA : (dats m 0 c).arrAt 4 cfg0.N = A)
    (r : Fin 100000) (g : Fin 128) :
    (Pipeline.afterTail₀ cfgs (dats m) 0 (V0 m) [hostOps1] c main_v3 : S1x100000x128.Idx → Elt F .f32) (ix3 (0 : Fin 1) r g)
      = (A : S100000x128.Idx → Elt F .f32) (ix2 r g) :=
  (congrFun (tail_array m c A hA) (ix3 (0 : Fin 1) r g)).trans (shapeCast_ab_1ab_apply _ _ (0 : Fin 1) r g)

end Cert.KernelIdeal.HostEnds

end
-- ==== Proof.KernelRun.lean ====
/-
  The idealized kernel's run, read as a value: every weakly fair execution ends with the result array at the
  specification `Cert.Bridge.G` of the four argument arrays (the fused form), and the arguments unchanged.

  The result is the region's result array with a leading unit axis added; the region's result is stated over the
  reshaped `h` and bias the region finds, which are the arguments with a unit axis dropped or added.
-/
import proofs.«181394_g34368328302832_cont_8to1_b_213_26_alg».proof.Proof.Gen.KernelIdeal.Frame
import proofs.«181394_g34368328302832_cont_8to1_b_213_26_alg».proof.Proof.Blocks
import proofs.«181394_g34368328302832_cont_8to1_b_213_26_alg».proof.Proof.HostEnds
import proofs.«181394_g34368328302832_cont_8to1_b_213_26_alg».proof.Proof.Spec

set_option maxRecDepth 16384

noncomputable section

open Idealize.ShloMosaic Idealize.ShloMosaic.TcCoe Idealize.SL.Sem Idealize.ShloMosaic.ValueIdx

namespace Cert.KernelIdeal.KernelRun

open Cert.KernelIdeal Cert.KernelIdeal.Gen

variable (m : (ℓ : Loc nD τ sig) → Buf (Elt Ideal) ℓ) (ρ : Dev nD → PrngReg)

/-- The region's result at (r, g), over arrays that are the arguments reshaped, is the fused form of the arguments. -/
theorem resultOf_eq (H : S100000x128.Idx → EReal) (Gr Wv : S128x128.Idx → EReal) (B : S1x128.Idx → EReal)
    (h : Cert.Bridge.Sh.Idx → EReal) (graph W : Cert.Bridge.Sm.Idx → EReal) (b : Cert.Bridge.Sb.Idx → EReal)
    (hH : ∀ (r : Fin 100000) (k : Fin 128), H (ix2 r k) = h (ix3 (0 : Fin 1) r k)) (hG : Gr = graph) (hW : Wv = W)
    (hB : ∀ o : Fin 128, B (ix2 (0 : Fin 1) o) = b (ix1 o)) (r : Fin 100000) (g : Fin 128) :
    Blocks.resultOf H Gr Wv B (ix2 r g) = Cert.Bridge.outFused h graph W b r g := by
  subst hG hW
  unfold Blocks.resultOf Cert.Bridge.outFused Cert.Bridge.fusedB
  exact congrArg₂ (· + ·)
    (Finset.sum_congr rfl fun k _ => congrArg (· * Cert.Bridge.fusedM Gr Wv k g) (hH r k))
    (Finset.sum_congr rfl fun o _ => congrArg (· * Gr (ix2 o g)) (hB o))

/-- The result buffer after the host's last reshape is the specification of the argument arrays. -/
theorem result_eq (c : Dev nD) :
    Pipeline.afterTail₀ cfgs (dats m) 0 (V0 m) [hostOps1] c main_v3
      = Cert.Bridge.G (m ((c : Thread nD τ).loc main_arg0)) (m ((c : Thread nD τ).loc main_arg1))
          (m ((c : Thread nD τ).loc main_arg2)) (m ((c : Thread nD τ).loc main_arg3)) := by
  funext i
  obtain ⟨z, r, g, rfl⟩ : ∃ (z : Fin 1) (r : Fin 100000) (g : Fin 128), i = ix3 z r g := ⟨i 0, i 1, i 2, eq_ix3 i⟩
  obtain rfl : z = 0 := Subsingleton.elim _ _
  refine (HostEnds.tail_result m c (Blocks.result m c) (Blocks.final m c) r g).trans ?_
  exact resultOf_eq _ _ _ _ _ _ _ _ (HostEnds.entry_rows m c) (V_main_arg1 m c) (V_main_arg2 m c)
    (HostEnds.entry_bias m c) r g

/-- The run: the result at the specification, the four arguments unchanged. -/
theorem run : θ_run defs (onTc (τ := τ) (main (F := Ideal))) ⟨m, fun _ => 0, ρ⟩ fun r => ∀ c : Dev nD,
      r.2.mem ((c.tc : Thread nD τ).loc main_v3)
        = Cert.Bridge.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelRun

end
-- ==== Proof.RefSide.lean ====
/-
  The reference program's result, read entry by entry, is the two-stage form of the specification.

  The reference computes  (h · Wᵀ + b) · graph  in four steps: a contraction of h with W over the feature axis, two
  broadcasts of the bias b, a sum, and a contraction of that sum with graph over the hidden axis. Reading the last
  contraction at an index i = (i₀, r, g) gives a sum over the hidden axis o of the message at (i₀, r, o) times
  graph(o, g); the message at (i₀, r, o) is  ∑ k, h(i₀, r, k) · W(o, k)  plus  b(o). The first axis has extent one,
  so i₀ = 0, and the entry is exactly the two-stage form at (r, g).
-/
import proofs.«181394_g34368328302832_cont_8to1_b_213_26_alg».proof.Proof.Spec
import proofs.«181394_g34368328302832_cont_8to1_b_213_26_alg».proof.Proof.Gen.ReferenceIdeal.Read

noncomputable section

namespace Cert.Bridge

open Idealize.ShloMosaic Idealize.ShloMosaic.ValueIdx Cert.ReferenceIdeal

/-- The left operand of the first contraction, read at the left index of the second: row (0, r), feature k of h.
    The leading coordinate lies below one, so it is zero. -/
theorem lidx_v0_v4 (i : S1x100000x128.Idx) (o k : Fin 128) :
    Read.lidx_main_v0 (Read.lidx_main_v4 i o) k = ix3 (0 : Fin 1) (i 1) k := by
  funext a
  match a with
  | ⟨0, _⟩ =>
    have h0 : (i 0).val < 1 := (i 0).isLt
    exact Fin.ext (by show (i 0).val = 0; omega)
  | ⟨1, _⟩ => rfl
  | ⟨2, _⟩ => rfl

/-- The right operand of the first contraction, read at the left index of the second: entry (o, k) of W. -/
theorem ridx_v0_v4 (i : S1x100000x128.Idx) (o k : Fin 128) :
    Read.ridx_main_v0 (Read.lidx_main_v4 i o) k = ix2 o k := by
  funext a
  match a with
  | ⟨0, _⟩ => rfl
  | ⟨1, _⟩ => rfl

/-- The two broadcasts of the bias, read at the left index of the second contraction: entry o of b. -/
theorem idx_v1_v2_v4 (i : S1x100000x128.Idx) (o : Fin 128) :
    Read.idx_main_v1 (Read.idx_main_v2 (Read.lidx_main_v4 i o)) = ix1 o := by
  funext a
  match a with
  | ⟨0, _⟩ => rfl

/-- The right operand of the second contraction: entry (o, g) of graph. -/
theorem ridx_v4 (i : S1x100000x128.Idx) (o : Fin 128) :
    Read.ridx_main_v4 i o = ix2 o (i 2) := by
  funext a
  match a with
  | ⟨0, _⟩ => rfl
  | ⟨1, _⟩ => rfl

/-- Entry i of the reference's result is the two-stage form at row `i 1` and column `i 2`. -/
theorem ref_apply (h : (⟨S1x100000x128, .f32⟩ : BufTy).Contents (Elt Ideal)) (graph W : (⟨S128x128, .f32⟩ : BufTy).Contents (Elt Ideal))
    (b : (⟨S128, .f32⟩ : BufTy).Contents (Elt Ideal)) (i : S1x100000x128.Idx) :
    Cert.ReferenceIdeal.Read.val_main_v4 (F := Ideal) h graph W b i = outStaged h graph W b (i 1) (i 2) := by
  rw [Cert.ReferenceIdeal.Read.val_main_v4_apply]
  unfold outStaged
  refine Finset.sum_congr rfl fun o _ => ?_
  rw [Read.val_main_v3_apply, Read.val_main_v0_apply, Read.val_main_v2_apply, Read.val_main_v1_apply,
    idx_v1_v2_v4, ridx_v4]
  show ((∑ k : Fin 128, h (Read.lidx_main_v0 (Read.lidx_main_v4 i o) k) * W (Read.ridx_main_v0 (Read.lidx_main_v4 i o) k))
      + b (ix1 o)) * graph (ix2 o (i 2)) = _
  congr 2
  refine Finset.sum_congr rfl fun k _ => ?_
  rw [lidx_v0_v4, ridx_v0_v4]
  rfl

end Cert.Bridge

end
-- ==== Proof.LibERealFinite.lean ====
/-
  Extended reals that are reals.

  Three small facts used when a claim about extended reals holds only for finite inputs: the coercion from the
  reals commutes with finite sums; subtracting a real and adding it back changes no extended real, the two
  infinities included; and an extended real whose absolute value lies strictly below the word of +infinity (the test
  a finiteness precondition applies to every entry) is a real.
-/
import Idealize.ShloMosaic.PureOps.Ideal.Laws

noncomputable section

namespace Idealize.ShloMosaic.ERealFinite

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real and adding it back is the identity on every extended real, the infinities included. -/
theorem sub_add_cancel_coe (a : EReal) (c : ℝ) : a - (c : EReal) + (c : EReal) = a := by
  induction a using EReal.rec with
  | bot => simp
  | coe a => rw [← EReal.coe_sub, ← EReal.coe_add]; congr 1; ring
  | top => simp

/-- An extended real whose absolute value compares strictly below the single-precision word of +infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Idealize.ShloMosaic.ERealFinite

end
-- ==== Proof.Fuse.lean ====
/-
  The two-stage form and the fused form of the result agree when every entry of the four arrays is a real.

  On the reals this is distributivity together with an exchange of the two finite sums:

    ∑ o, ((∑ k, h k · W o k) + b o) · γ o = (∑ k, h k · ∑ o, W o k · γ o) + ∑ o, b o · γ o.

  On the extended reals each entry is first written as the coercion of a real; products, sums and finite sums of
  coercions are coercions, so both sides are coercions of the two sides of the real identity.
-/
import proofs.«181394_g34368328302832_cont_8to1_b_213_26_alg».proof.Proof.Spec
import proofs.«181394_g34368328302832_cont_8to1_b_213_26_alg».proof.Proof.LibERealFinite
import Idealize.ShloMosaic.PureOps.Ideal.Laws

noncomputable section

namespace Cert.Bridge

open Idealize.ShloMosaic Idealize.ShloMosaic.ValueIdx

/-- The real identity behind the fusion, over arbitrary finite index types: distribute the product over the inner
    sum and the bias, then exchange the two sums. -/
theorem real_staged_eq_fused {ι κ : Type*} [Fintype ι] [Fintype κ]
    (h : κ → ℝ) (W : ι → κ → ℝ) (b : ι → ℝ) (γ : ι → ℝ) :
    ∑ o, ((∑ k, h k * W o k) + b o) * γ o = (∑ k, h k * ∑ o, W o k * γ o) + ∑ o, b o * γ o := by
  simp only [add_mul, Finset.sum_add_distrib, Finset.sum_mul, Finset.mul_sum]
  congr 1
  rw [Finset.sum_comm]
  refine Finset.sum_congr rfl fun k _ => Finset.sum_congr rfl fun o _ => ?_
  ring

/-- With every entry of the four arrays a real, the two-stage form of each result entry equals the fused form. -/
theorem outStaged_eq_outFused (h : Sh.Idx → EReal) (graph W : Sm.Idx → EReal) (b : Sb.Idx → EReal)
    (hh : AllReal h) (hg : AllReal graph) (hW : AllReal W) (hb : AllReal b) (r : Fin 100000) (g : Fin 128) :
    outStaged h graph W b r g = outFused h graph W b r g := by
  have hh0 : ∀ i, ∃ x : ℝ, h i = (x : EReal) := hh
  have hg0 : ∀ i, ∃ x : ℝ, graph i = (x : EReal) := hg
  have hW0 : ∀ i, ∃ x : ℝ, W i = (x : EReal) := hW
  have hb0 : ∀ i, ∃ x : ℝ, b i = (x : EReal) := hb
  choose h' hh' using hh0
  choose g' hg' using hg0
  choose W' hW' using hW0
  choose b' hb' using hb0
  unfold outStaged outFused fusedM fusedB
  simp only [hh', hg', hW', hb']
  simp only [← EReal.coe_mul, ← EReal.coe_add, ← Idealize.ShloMosaic.ERealFinite.coe_sum]
  exact congrArg _ (real_staged_eq_fused (fun k => h' (ix3 (0 : Fin 1) r k)) (fun o k => W' (ix2 o k))
    (fun o => b' (ix1 o)) (fun o => g' (ix2 o g)))

end Cert.Bridge

end
-- ==== Proof.Finite.lean ====
/-
  The finiteness precondition, read back.

  The precondition takes, for each of the four argument arrays, the absolute value of every entry, compares it strictly
  below +infinity, and joins all the answers — over every entry of an array, then over the four arrays — by `and`. When
  that conjunction is the bit 1, every single comparison was 1: every entry of every array has an absolute value strictly
  below +infinity, and an extended real with that property is a real.
-/
import proofs.«181394_g34368328302832_cont_8to1_b_213_26_alg».proof.Pre_finite_inputs
import proofs.«181394_g34368328302832_cont_8to1_b_213_26_alg».proof.Proof.Spec
import proofs.«181394_g34368328302832_cont_8to1_b_213_26_alg».proof.Proof.LibERealFinite
import Idealize.ShloMosaic.Lib.ReduceAll
import Idealize.ShloMosaic.Lib.ValueIdx
import Idealize.ShloMosaic.PureOps.Ideal.Laws

noncomputable section

namespace Cert.Bridge

open Idealize.ShloMosaic Cert.Pre_finite_inputs

/-- One array's share of the precondition. If the conjunction, over all entries, of "the absolute value of the entry is
    strictly below +infinity" is 1, then each of the comparisons is 1, and so each entry is a real. -/
theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1) :
    AllReal (x : s.Idx → EReal) := by
  intro i
  -- the shape of a scalar has exactly one index
  haveI : Subsingleton S_.Idx := ⟨fun a b => funext fun d => d.elim0⟩
  -- the comparison at the entry i is 1 …
  have hi := Host.reduce_andi_all _ init hr hu j e i
  -- … and it compares max (x i) (-(x i)) with the extended real that the word of +infinity encodes
  exact Idealize.ShloMosaic.ERealFinite.real_of_abs_lt (x i) hi

/-- The precondition holds only when every entry of each of the four argument arrays is a real. -/
theorem allReal_of_pre [Cert.Pre_finite_inputs.Facts]
    (x0 : FVec Ideal S1x100000x128 .f32) (x1 x2 : FVec Ideal S128x128 .f32) (x3 : FVec Ideal S128 .f32)
    (hpre : Cert.Pre_finite_inputs.fn (F := Ideal) x0 x1 x2 x3 = (fun _ => 1#1)) :
    AllReal x0 ∧ AllReal x1 ∧ AllReal x2 ∧ AllReal x3 := by
  -- the one entry of the precondition's result
  have h0 := congrFun hpre ValueIdx.ix0
  unfold fn fn_part1 at h0
  -- the result is ((a₀ and a₁) and a₂) and a₃, one bit per array: split it into its four bits
  obtain ⟨h012, h3⟩ := IntOp.andi_eq_one.1 h0
  obtain ⟨h01, h2⟩ := IntOp.andi_eq_one.1 h012
  obtain ⟨h0', h1⟩ := IntOp.andi_eq_one.1 h01
  exact ⟨allReal_of_all x0 _ _ _ _ _ h0', allReal_of_all x1 _ _ _ _ _ h1, allReal_of_all x2 _ _ _ _ _ h2,
    allReal_of_all x3 _ _ _ _ _ h3⟩

end Cert.Bridge

end
-- ==== Proof.lean ====
/- The message-passing layer `out = (h · Wᵀ + b) · graph` against its fused kernel `out = h · (Wᵀ · graph) + b · graph`.

   The kernel computes the fused matrix `Wᵀ · graph` and the fused bias row `b · graph` once, at the first of ten grid
   points, keeps both in scratch memory, and at every point multiplies 10000 rows of `h` by the fused matrix and adds
   the fused bias row; the reference contracts `h` with `W`, adds `b`, and contracts the result with `graph`.
   Over the extended reals, with every input entry finite, both are
       out(0,r,g) = ∑ o, ((∑ k, h(0,r,k) · W(o,k)) + b(o)) · graph(o,g)
                  = (∑ k, h(0,r,k) · ∑ o, W(o,k) · graph(o,g)) + ∑ o, b(o) · graph(o,g),
   equal by distributivity and an exchange of the two sums; finiteness is needed because distributivity fails at the
   infinities.  The pieces: Spec (the two forms), Fuse (their equality for real entries), Finite (the precondition
   makes every entry real), RefSide (the reference's run is the two-stage form), and for the kernel Pieces and
   Payloads (what one run of the body leaves, and its products at an index), Invariant (the scratch keeps the first
   point's values at every point), Geometry, Blocks and HostEnds (blocks to the whole array, and the reshapes around
   the region), KernelRun (the kernel's run is the fused form).  The ideal pass rewrote nothing, so the kernel's
   idealization is its own text. -/
import proofs.«181394_g34368328302832_cont_8to1_b_213_26_alg».proof.Defs
import proofs.«181394_g34368328302832_cont_8to1_b_213_26_alg».proof.Proof.Gen.Kernel
import proofs.«181394_g34368328302832_cont_8to1_b_213_26_alg».proof.Proof.Gen.Kernel.Skeleton
import proofs.«181394_g34368328302832_cont_8to1_b_213_26_alg».proof.Proof.Gen.Kernel.Launch
import proofs.«181394_g34368328302832_cont_8to1_b_213_26_alg».proof.Proof.Gen.Kernel.Points
import proofs.«181394_g34368328302832_cont_8to1_b_213_26_alg».proof.Proof.Gen.Kernel.Frame
import proofs.«181394_g34368328302832_cont_8to1_b_213_26_alg».proof.Proof.Gen.KernelIdeal
import proofs.«181394_g34368328302832_cont_8to1_b_213_26_alg».proof.Proof.Gen.KernelIdeal.Skeleton
import proofs.«181394_g34368328302832_cont_8to1_b_213_26_alg».proof.Proof.Gen.KernelIdeal.Launch
import proofs.«181394_g34368328302832_cont_8to1_b_213_26_alg».proof.Proof.Gen.KernelIdeal.Points
import proofs.«181394_g34368328302832_cont_8to1_b_213_26_alg».proof.Proof.Gen.KernelIdeal.Frame
import proofs.«181394_g34368328302832_cont_8to1_b_213_26_alg».proof.Proof.Gen.ReferenceIdeal
import proofs.«181394_g34368328302832_cont_8to1_b_213_26_alg».proof.Proof.Gen.Pre_finite_inputs
import proofs.«181394_g34368328302832_cont_8to1_b_213_26_alg».proof.Proof.Gen.ReferenceIdeal.Run
import proofs.«181394_g34368328302832_cont_8to1_b_213_26_alg».proof.Proof.Gen.ReferenceIdeal.Read
import proofs.«181394_g34368328302832_cont_8to1_b_213_26_alg».proof.Proof.KernelRun
import proofs.«181394_g34368328302832_cont_8to1_b_213_26_alg».proof.Proof.RefSide
import proofs.«181394_g34368328302832_cont_8to1_b_213_26_alg».proof.Proof.Fuse
import proofs.«181394_g34368328302832_cont_8to1_b_213_26_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the fused form of the arguments: the kernel by its run, the reference because its two-stage
    form equals the fused form once every entry is a real, which the precondition gives. -/
theorem algebraic : Cert.algebraic_KernelIdeal_ReferenceIdeal := by
  intro m ρ m' ρ' hpre hagree
  refine ⟨fun c => Cert.Bridge.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v4_eq]
  obtain ⟨h0, h1, h2, h3⟩ := Cert.Bridge.allReal_of_pre _ _ _ _ (hpre c)
  funext i
  exact (Cert.Bridge.ref_apply _ _ _ _ i).trans (Cert.Bridge.outStaged_eq_outFused _ _ _ _ h0 h1 h2 h3 (i 1) (i 2))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
